-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x1x128 : Shape := ⟨4, ![8192, 1, 1, 128]⟩
abbrev S1x16384x1x128 : Shape := ⟨4, ![1, 16384, 1, 128]⟩
abbrev S_ : Shape := ⟨0, ![]⟩

class Facts : Prop where
  bcast_S_S8192x1x1x128 : S_.BroadcastsInDim S8192x1x1x128 (![] : Fin 0 → Fin S8192x1x1x128.rank)
  reducesTo_S8192x1x1x128_S_d0_1_2_3 : S8192x1x1x128.ReducesTo [0, 1, 2, 3] S_
  h_S_ : 0 < S_.numel
  bcast_S_S1x16384x1x128 : S_.BroadcastsInDim S1x16384x1x128 (![] : Fin 0 → Fin S1x16384x1x128.rank)
  reducesTo_S1x16384x1x128_S_d0_1_2_3 : S1x16384x1x128.ReducesTo [0, 1, 2, 3] S_

variable [Facts]

def fn {F : FTy → Type} [FloatOps F] (main_arg0 : FVec F S8192x1x1x128 .f32) (main_arg1 : FVec F S1x16384x1x128 .f32) : IVec S_ 1 :=
  let main_v0 : FVec F S8192x1x1x128 .f32 := Host.absf main_arg0
  let main_cst : FVec F S_ .f32 := constant S_ .f32 0x7F800000#32
  let main_v1 : FVec F S8192x1x1x128 .f32 := broadcastInDim S8192x1x1x128 ![] bcast_S_S8192x1x1x128 main_cst
  let main_v2 : IVec S8192x1x1x128 1 := cmpf .olt main_v0 main_v1
  let main_c : IVec S_ 1 := constantI S_ 1 1#1
  let main_v3 : IVec S_ 1 := (fun x v => Host.reduce IntOp.andi x v reducesTo_S8192x1x1x128_S_d0_1_2_3 h_S_) main_v2 main_c
  let main_v4 : FVec F S1x16384x1x128 .f32 := Host.absf main_arg1
  let main_cst_0 : FVec F S_ .f32 := constant S_ .f32 0x7F800000#32
  let main_v5 : FVec F S1x16384x1x128 .f32 := broadcastInDim S1x16384x1x128 ![] bcast_S_S1x16384x1x128 main_cst_0
  let main_v6 : IVec S1x16384x1x128 1 := cmpf .olt main_v4 main_v5
  let main_c_1 : IVec S_ 1 := constantI S_ 1 1#1
  let main_v7 : IVec S_ 1 := (fun x v => Host.reduce IntOp.andi x v reducesTo_S1x16384x1x128_S_d0_1_2_3 h_S_) main_v6 main_c_1
  let main_v8 : IVec S_ 1 := andi main_v3 main_v7
  main_v8
-- ==== Kernel.lean ====
abbrev S8192x1x1x128 : Shape := ⟨4, ![8192, 1, 1, 128]⟩
abbrev S1x16384x1x128 : Shape := ⟨4, ![1, 16384, 1, 128]⟩
abbrev S8192x128 : Shape := ⟨2, ![8192, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S8192 : Shape := ⟨1, ![8192]⟩
abbrev S8192x1 : Shape := ⟨2, ![8192, 1]⟩
abbrev S512x128 : Shape := ⟨2, ![512, 128]⟩
abbrev S512x1 : Shape := ⟨2, ![512, 1]⟩
abbrev S1024x128 : Shape := ⟨2, ![1024, 128]⟩
abbrev S1x1024 : Shape := ⟨2, ![1, 1024]⟩
abbrev S512x1024 : Shape := ⟨2, ![512, 1024]⟩
abbrev S512 : Shape := ⟨1, ![512]⟩

abbrev nBuf : Space → Nat
  | .hbm => 17
  | .vmem => 9
  | .smem => 0
  | _ => 0

abbrev bufTy : (tb : Table) → Fin (tcTables nBuf tb) → BufTy
  | .hbm, ⟨0, _⟩ => ⟨S8192x1x1x128, .f32⟩
  | .hbm, ⟨1, _⟩ => ⟨S1x16384x1x128, .f32⟩
  | .hbm, ⟨2, _⟩ => ⟨S8192x128, .f32⟩
  | .hbm, ⟨3, _⟩ => ⟨S16384x128, .f32⟩
  | .hbm, ⟨4, _⟩ => ⟨S16384x128, .bf16⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x128, .f32⟩
  | .hbm, ⟨15, _⟩ => ⟨S8192x128, .bf16⟩
  | .hbm, ⟨16, _⟩ => ⟨S8192x1, .f32⟩
  | .local _ .vmem, ⟨0, _⟩ => ⟨S512x128, .bf16⟩
  | .local _ .vmem, ⟨1, _⟩ => ⟨S512x128, .bf16⟩
  | .local _ .vmem, ⟨2, _⟩ => ⟨S512x1, .f32⟩
  | .local _ .vmem, ⟨3, _⟩ => ⟨S512x1, .f32⟩
  | .local _ .vmem, ⟨4, _⟩ => ⟨S16384x128, .bf16⟩
  | .local _ .vmem, ⟨5, _⟩ => ⟨S1x16384, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x1x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v15 : BitVec 32 := Scalar.muli arg7 c1024_i32
  v15
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v15 : BitVec 32 := Scalar.muli arg7 c1024_i32
  let v16 : BitVec 32 := v15
  let v17 : Index := Scalar.indexCast v16
  let c0_11 : Index := 0#32
  ![v17.toNat, 0]
def k0_off2 (k0_t1 : Fin k0_t1_loop.trips) : Fin 2 → Nat :=
  let c0_12 : Index := 0#32
  let c0_i32 : BitVec 32 := 0#32
  let c1_i32 : BitVec 32 := 1#32
  let arg7 : BitVec 32 := Scf.iv c0_i32 c1_i32 k0_t1
  let c1024_i32 : BitVec 32 := 1024#32
  let v15 : BitVec 32 := Scalar.muli arg7 c1024_i32
  let v16 : BitVec 32 := v15
  let v20 : Index := Scalar.indexCast v16
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x1x1x128_S8192x128 : S8192x1x1x128.ShapeCasts S8192x128
  shapeCasts_S1x16384x1x128_S16384x128 : S1x16384x1x128.ShapeCasts S16384x128
  bitsLt_bf16_f32 : FTy.bits .bf16 < FTy.bits .f32
  reducesTo_S16384x128_S16384_d1 : S16384x128.ReducesTo [1] S16384
  h_S_ : 0 < S_.numel
  bcast_S16384_S16384x1_0 : S16384.BroadcastsInDim S16384x1 (![0] : Fin 1 → Fin S16384x1.rank)
  shapeCasts_S16384x1_S1x16384 : S16384x1.ShapeCasts S1x16384
  reducesTo_S8192x128_S8192_d1 : S8192x128.ReducesTo [1] S8192
  bcast_S8192_S8192x1_0 : S8192.BroadcastsInDim S8192x1 (![0] : Fin 1 → Fin S8192x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  dot_S512x128_S1024x128_S512x1024_1_1_0_0_n_n_wf : DotDims.WF S512x128 S1024x128 S512x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S16384x128.size a
  k0_off2_inb : ∀ k0_t1 : Fin k0_t1_loop.trips, ∀ a, (k0_off2 k0_t1) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S16384x128.size a
  hwx0_2 : ∀ i : grid0.Coords, EltTy.bits .bf16 = 32 ∨ (Rect.block (s := S16384x128) S16384x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v11) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1x1x128 : Shape := ⟨4, ![8192, 1, 1, 128]⟩
abbrev S1x16384x1x128 : Shape := ⟨4, ![1, 16384, 1, 128]⟩
abbrev S8192x128 : Shape := ⟨2, ![8192, 128]⟩
abbrev S16384x128 : Shape := ⟨2, ![16384, 128]⟩
abbrev S_ : Shape := ⟨0, ![]⟩
abbrev S8192 : Shape := ⟨1, ![8192]⟩
abbrev S16384 : Shape := ⟨1, ![16384]⟩
abbrev S8192x16384 : Shape := ⟨2, ![8192, 16384]⟩
abbrev S8192x1 : Shape := ⟨2, ![8192, 1]⟩
abbrev S1x16384 : Shape := ⟨2, ![1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8192x1x1x128, .f32⟩
  | .hbm, ⟨1, _⟩ => ⟨S1x16384x1x128, .f32⟩
  | .hbm, ⟨2, _⟩ => ⟨S8192x128, .f32⟩
  | .hbm, ⟨3, _⟩ => ⟨S16384x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S16384x128, .f32⟩
  | .hbm, ⟨8, _⟩ => ⟨S_, .f32⟩
  | .hbm, ⟨9, _⟩ => ⟨S16384, .f32⟩
  | .hbm, ⟨10, _⟩ => ⟨S8192x16384, .f32⟩
  | .hbm, ⟨11, _⟩ => ⟨S8192x1, .f32⟩
  | .hbm, ⟨12, _⟩ => ⟨S1x16384, .f32⟩
  | .hbm, ⟨13, _⟩ => ⟨S8192x16384, .f32⟩
  | .hbm, ⟨14, _⟩ => ⟨S8192x16384, .f32⟩
  | .hbm, ⟨15, _⟩ => ⟨S8192x16384, .f32⟩
  | .hbm, ⟨16, _⟩ => ⟨S_, .f32⟩
  | .hbm, ⟨17, _⟩ => ⟨S8192x16384, .f32⟩
  | .hbm, ⟨18, _⟩ => ⟨S8192x16384, .f32⟩
  | .hbm, ⟨19, _⟩ => ⟨S8192x16384, .f32⟩
  | .hbm, ⟨20, _⟩ => ⟨S_, .f32⟩
  | .hbm, ⟨21, _⟩ => ⟨S8192x16384, .f32⟩
  | .hbm, ⟨22, _⟩ => ⟨S8192x16384, .f32⟩
  | .hbm, ⟨23, _⟩ => ⟨S8192x16384, .f32⟩
  | .hbm, ⟨24, _⟩ => ⟨S_, .f32⟩
  | .hbm, ⟨25, _⟩ => ⟨S8192, .f32⟩
  | .hbm, ⟨26, _⟩ => ⟨S8192x1, .f32⟩
  | _, _ => ⟨S8192x1x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S8192x1x1x128_S8192x128 : S8192x1x1x128.ShapeCasts S8192x128
  shapeCasts_S1x16384x1x128_S16384x128 : S1x16384x1x128.ShapeCasts S16384x128
  reducesTo_S8192x128_S8192_d1 : S8192x128.ReducesTo [1] S8192
  h_S_ : 0 < S_.numel
  reducesTo_S16384x128_S16384_d1 : S16384x128.ReducesTo [1] S16384
  bcast_S8192_S8192x1_0 : S8192.BroadcastsInDim S8192x1 (![0] : Fin 1 → Fin S8192x1.rank)
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  reducesTo_S8192x16384_S8192_d1 : S8192x16384.ReducesTo [1] S8192
  dot_S8192x128_S16384x128_S8192x16384_1_1_0_0_n_n_wf : DotDims.WF S8192x128 S16384x128 S8192x16384 [1] [1] [0] [0] [] []

variable [Facts₀]

def dot_S8192x128_S16384x128_S8192x16384_1_1_0_0_n_n : DotDims S8192x128 S16384x128 S8192x16384 where
  lhsContracting := [1]
  rhsContracting := [1]
  lhsNonContracting := [0]
  rhsNonContracting := [0]
  lhsBatch := []
  rhsBatch := []
  wf := dot_S8192x128_S16384x128_S8192x16384_1_1_0_0_n_n_wf

class Facts : Prop extends Facts₀ where

variable [Facts]
-- ==== Proof.LibWholeStore.lean ====
/-
  A buffer read back after stores the LAST of which rewrote the whole block.

  A running accumulator kept in a scratch buffer is rewritten whole on every trip of a loop: whatever the earlier
  stores left, and whatever the buffer held before, a read after the store is the store's payload; and a load
  through the whole-block rectangle reads the buffer.  Nothing here mentions a program.
-/
import Idealize.ShloMosaic.Lib.Pipeline.Value

namespace Cert.LibWholeStore

open Idealize.ShloMosaic

variable {Val : EltTy → Type} {S : Shape} {e : EltTy} {sig : RefSig} {κ : Kind} {sp : Space}

/-- After a list of stores (the last one first) whose last is a store of the whole block, the buffer reads that
    store's payload, whatever the earlier stores and the prior contents were. -/
theorem read_writes_cons_whole [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-block rectangle reads the buffer's contents. -/
theorem readAt_whole (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [View.readAt_eq_ld, View.ld_unit_zero h inb]

end Cert.LibWholeStore
-- ==== Proof.KernelBody.lean ====
/-
  What one grid point of the kernel leaves in its output block, as a pure function of the four input blocks.

  The body keeps a running minimum in a scratch buffer: it fills the buffer with `+∞`, then on each of the 16 trips
  of its loop loads 1024 memory rows and their squared norms, reads the buffer back, folds the chunk's row minima
  into it and rewrites the buffer whole; after the loop it adds the features' squared norms to the buffer, clamps at
  zero and takes the square root.  So the output block is the last payload applied to the features' norms and to
  `acc 16`, where `acc k` is the buffer before trip `k`: the `+∞` fill for `k = 0`, and the loop's payload applied
  to the chunk and to `acc k` for `k + 1`.  Stated for every float instance.
-/
import proofs.«117125_j764504179304_2_alg».proof.Proof.Gen.KernelIdeal.Frame
import proofs.«117125_j764504179304_2_alg».proof.Proof.LibWholeStore

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem
open Cert.LibWholeStore

variable {F : FTy → Type} [FloatOps F]

/-- The zero offsets of a whole-block rectangle of a matrix. -/
theorem zero2 : (![0, 0] : Fin 2 → ℕ) = fun _ => 0 := by
  funext a; match a with | ⟨0, _⟩ => rfl | ⟨1, _⟩ => rfl

/-- Chunk `k` of the memory rows: 1024 consecutive rows of the resident block. -/
def rows (x2 : Vec F S16384x128 .bf16) (k : Fin k0_t1_loop.trips) : Vec F S1024x128 .bf16 :=
  View.ld x2 (Rect.unit (s := S16384x128) (k0_off1 k) S1024x128.size (k0_off1_inb k))

/-- Chunk `k` of the memory rows' squared norms. -/
def norms (x3 : Vec F S1x16384 .f32) (k : Fin k0_t1_loop.trips) : Vec F S1x1024 .f32 :=
  View.ld x3 (Rect.unit (s := S1x16384) (k0_off2 k) S1x1024.size (k0_off2_inb k))

/-- The running minimum held in the scratch buffer before trip `k`. -/
def acc (x0 : Vec F S512x128 .bf16) (x2 : Vec F S16384x128 .bf16) (x3 : Vec F S1x16384 .f32) : ℕ → Vec F S512x1 .f32
  | 0 => k0_pay1
  | k + 1 => if h : k < k0_t1_loop.trips then k0_pay2 x0 (rows x2 ⟨k, h⟩) (norms x3 ⟨k, h⟩) (acc x0 x2 x3 k) else acc x0 x2 x3 k

section Run

variable (𝒱 : Variants) (bd : Option 𝒱.V) (c : Dev nD) (i : grid0.Coords) (arg1 : Memref sig .tc .vmem S512x128 .bf16) (harg1 : arg1.IsWhole) (arg2 : Memref sig .tc .vmem S512x1 .f32) (harg2 : arg2.IsWhole) (arg3 : Memref sig .tc .vmem S16384x128 .bf16) (harg3 : arg3.IsWhole) (arg4 : Memref sig .tc .vmem S1x16384 .f32) (harg4 : arg4.IsWhole) (arg5 : Memref sig .tc .vmem S512x1 .f32) (harg5 : arg5.IsWhole) (arg6 : Memref sig .tc .vmem S512x1 .f32) (harg6 : arg6.IsWhole)

/-- One trip's store: the whole scratch block, rewritten with the loop's payload of the trip's two chunks and of
    what the trip found in the buffer. -/
theorem trip_pieces (v4 : Vec F S512x128 .bf16) (X3 : BufTy.Contents (Elt F) arg3.view.ty) (X4 : BufTy.Contents (Elt F) arg4.view.ty)
    (k : Fin k0_t1_loop.trips) (f : BufTy.Contents (Elt F) arg6.view.ty) :
    tripL_k0_t1 (F := F) 𝒱 c bd i arg1 harg1 arg2 harg2 arg3 harg3 arg4 harg4 arg5 harg5 arg6 harg6 v4 X3 X4 k f
      = [⟨Rect.unit (s := S512x1) ![0, 0] S512x1.size inb_S512x1_S512x1_0_0,
          k0_pay2 v4
            (View.readAt (Elt F) arg3.view (Rect.unit (s := S16384x128) (k0_off1 k) S1024x128.size (k0_off1_inb k)).toLoadRect X3)
            (View.readAt (Elt F) arg4.view (Rect.unit (s := S1x16384) (k0_off2 k) S1x1024.size (k0_off2_inb k)).toLoadRect X4)
            (View.readAt (Elt F) arg6.view (Rect.unit (s := S512x1) ![0, 0] S512x1.size inb_S512x1_S512x1_0_0).toLoadRect f)⟩] := by
  unfold tripL_k0_t1 trip_k0_t1
  rfl

/-- The scratch buffer before trip `k`, read back: the running minimum `acc k` — by induction on the trips, each
    trip's whole-block store hiding everything under it. -/
theorem read_trips (x0 : Vec F S512x128 .bf16) (x2 : Vec F S16384x128 .bf16) (x3 : Vec F S1x16384 .f32)
    (G : BufTy.Contents (Elt F) arg6.view.ty) (hG : arg6.view.read (Elt F) G = k0_pay1) :
    ∀ k : ℕ, arg6.view.read (Elt F) (arg6.view.writes (Elt F) G
        (pb_k0_t1 (F := F) 𝒱 c bd i arg1 harg1 arg2 harg2 arg3 harg3 arg4 harg4 arg5 harg5 arg6 harg6 x0
          (harg3.unread x2) (harg4.unread x3) G k)) = acc x0 x2 x3 k
  | 0 => by rw [pb_k0_t1.eq_1]; exact hG
  | k + 1 => by
    rw [pb_k0_t1.eq_2]
    unfold pb_k0_t1Step
    by_cases h : k < k0_t1_loop.trips
    · rw [dif_pos h, trip_pieces, List.singleton_append, read_writes_cons_whole _ _ zero2, acc, dif_pos h]
      rw [readAt_whole _ _ zero2, read_trips x0 x2 x3 G hG k]
      simp only [View.readAt_eq_ld, harg3.read_unread, harg4.read_unread]
      rfl
    · rw [dif_neg h, acc, dif_neg h]
      exact read_trips x0 x2 x3 G hG k

end Run

/-- WHAT A POINT LEAVES in its output block: the features' norms plus the running minimum after the last trip,
    clamped at zero, under the square root. -/
theorem out_eq (c : Dev nD) (i : grid0.Coords) (arg1 : Memref sig .tc .vmem S512x128 .bf16) (harg1 : arg1.IsWhole) (arg2 : Memref sig .tc .vmem S512x1 .f32) (harg2 : arg2.IsWhole) (arg3 : Memref sig .tc .vmem S16384x128 .bf16) (harg3 : arg3.IsWhole) (arg4 : Memref sig .tc .vmem S1x16384 .f32) (harg4 : arg4.IsWhole) (arg5 : Memref sig .tc .vmem S512x1 .f32) (harg5 : arg5.IsWhole) (arg6 : Memref sig .tc .vmem S512x1 .f32) (harg6 : arg6.IsWhole)
    (x0 : Vec F S512x128 .bf16) (x1 : Vec F S512x1 .f32) (x2 : Vec F S16384x128 .bf16) (x3 : Vec F S1x16384 .f32) :
    out0_A_4 c i arg1 harg1 arg2 harg2 arg3 harg3 arg4 harg4 arg5 harg5 arg6 harg6 x0 x1 x2 x3 = k0_pay3 x1 (acc x0 x2 x3 k0_t1_loop.trips) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero zero2]
  rw [View.writes_append, readAt_whole _ _ zero2, readAt_whole _ _ zero2, readAt_whole _ _ zero2]
  rw [harg1.read_unread, harg2.read_unread]
  rw [read_trips Variants.none none c i arg1 harg1 arg2 harg2 arg3 harg3 arg4 harg4 arg5 harg5 arg6 harg6 x0 x2 x3 _ (read_writes_cons_whole _ _ zero2 _ _ _)]

end Cert.KernelIdeal.Body

end
-- ==== Proof.LibMinChunks.lean ====
/-
  Minima over a finite index set: cut into consecutive chunks, accumulated chunk by chunk, and pushed through a
  monotone map.

  The nearest-neighbour distance is a minimum over 16384 memory rows.  One side takes it in one sweep; the other
  sweeps 16 chunks of 1024 rows, keeps a running minimum across the chunks, and applies the (monotone) map
  `x ↦ sqrt (max (c + x) 0)` once, after the minimum, where the first applies it to every entry before the
  minimum.  All three facts are order theory in a linear order with a top element, stated here without any program;
  a minimum is written as the fold of `min` from `⊤`, the form both reductions are read in, and every proof goes
  through its universal property: `c` is below the minimum exactly when it is below every entry.
-/
import Mathlib

namespace KnnMin

open Finset

variable {α : Type*} [LinearOrder α] [OrderTop α]

/-- `c` is below the minimum of a family exactly when it is below every member. -/
theorem le_minAll {ι : Type*} [Fintype ι] (f : ι → α) (c : α) :
    c ≤ (univ : Finset ι).fold min ⊤ f ↔ ∀ x, c ≤ f x := by
  rw [Finset.le_fold_min]
  exact ⟨fun h x => h.2 x (mem_univ x), fun h => ⟨le_top, fun x _ => h x⟩⟩

/-- The position `k * b + l` of entry `l` of chunk `k`, among `n = a * b` positions. -/
def pos {a b n : ℕ} (hn : a * b = n) (k : Fin a) (l : Fin b) : Fin n :=
  ⟨k.val * b + l.val, by
    have hk := k.isLt
    have hl := l.isLt
    calc k.val * b + l.val < k.val * b + b := by omega
      _ = (k.val + 1) * b := by ring
      _ ≤ a * b := Nat.mul_le_mul_right b hk
      _ = n := hn⟩

/-- Every position is entry `j % b` of chunk `j / b`. -/
theorem exists_pos {a b n : ℕ} (hn : a * b = n) (j : Fin n) : ∃ (k : Fin a) (l : Fin b), j = pos hn k l := by
  subst hn
  have hb : 0 < b := by
    rcases Nat.eq_zero_or_pos b with hb | hb
    · exact absurd j.isLt (by simp [hb])
    · exact hb
  have hk : j.val / b < a := (Nat.div_lt_iff_lt_mul hb).2 j.isLt
  have hl : j.val % b < b := Nat.mod_lt _ hb
  exact ⟨⟨j.val / b, hk⟩, ⟨j.val % b, hl⟩, Fin.ext (by simp only [pos]; exact (Nat.div_add_mod' j.val b).symm)⟩

/-- The minimum of the chunk minima is the minimum over all positions. -/
theorem min_chunks {a b n : ℕ} (hn : a * b = n) (h : Fin n → α) :
    ((univ : Finset (Fin a)).fold min ⊤ fun k => (univ : Finset (Fin b)).fold min ⊤ fun l => h (pos hn k l))
      = (univ : Finset (Fin n)).fold min ⊤ h := by
  refine eq_of_forall_le_iff fun c => ?_
  rw [le_minAll, le_minAll]
  constructor
  · intro hc j
    obtain ⟨k, l, rfl⟩ := exists_pos hn j
    exact (le_minAll _ c).1 (hc k) l
  · intro hc k
    exact (le_minAll _ c).2 fun l => hc (pos hn k l)

/-- The running minimum before chunk `k`: `⊤` before the first, then each chunk's value folded in. -/
def runMin (a : ℕ) (tile : Fin a → α) : ℕ → α
  | 0 => ⊤
  | k + 1 => if h : k < a then min (runMin a tile k) (tile ⟨k, h⟩) else runMin a tile k

theorem le_runMin (a : ℕ) (tile : Fin a → α) (c : α) :
    ∀ k, c ≤ runMin a tile k ↔ ∀ j : Fin a, j.val < k → c ≤ tile j
  | 0 => by simp [runMin]
  | k + 1 => by
    by_cases h : k < a
    · rw [runMin, dif_pos h, le_min_iff, le_runMin a tile c k]
      constructor
      · rintro ⟨h1, h2⟩ j hj
        rcases Nat.lt_succ_iff_lt_or_eq.mp hj with hlt | heq
        · exact h1 j hlt
        · have : j = ⟨k, h⟩ := Fin.ext heq
          rw [this]; exact h2
      · intro hc
        exact ⟨fun j hj => hc j (Nat.lt_succ_of_lt hj), hc ⟨k, h⟩ (Nat.lt_succ_self k)⟩
    · rw [runMin, dif_neg h, le_runMin a tile c k]
      constructor
      · intro hc j hj
        exact hc j (by have := j.isLt; omega)
      · intro hc j hj
        exact hc j (Nat.lt_succ_of_lt hj)

/-- After the last chunk the running minimum is the minimum of all the chunk values. -/
theorem runMin_all (a : ℕ) (tile : Fin a → α) : runMin a tile a = (univ : Finset (Fin a)).fold min ⊤ tile := by
  refine eq_of_forall_le_iff fun c => ?_
  rw [le_runMin, le_minAll]
  exact ⟨fun h j => h j j.isLt, fun h j _ => h j⟩

/-- A monotone map commutes with the minimum of a nonempty family (its value at `⊤` is above its value at any member,
    so it does not matter what that value is). -/
theorem map_minAll {β : Type*} [LinearOrder β] [OrderTop β] {ι : Type*} [Fintype ι] [Nonempty ι]
    (g : α → β) (hg : Monotone g) (f : ι → α) :
    g ((univ : Finset ι).fold min ⊤ f) = (univ : Finset ι).fold min ⊤ fun x => g (f x) := by
  have e : (univ : Finset ι).fold min (g ⊤) (fun x => g (f x)) = g ((univ : Finset ι).fold min ⊤ f) :=
    Finset.fold_hom (op := min) (op' := min) (m := g) (fun x y => hg.map_min)
  rw [← e]
  refine eq_of_forall_le_iff fun c => ?_
  rw [Finset.le_fold_min, le_minAll]
  constructor
  · exact fun h x => h.2 x (mem_univ x)
  · intro h
    obtain ⟨x0⟩ := ‹Nonempty ι›
    exact ⟨(h x0).trans (hg le_top), fun x _ => h x⟩

end KnnMin
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelPoint.lean ====
/-
  The kernel's three payloads read at one row, at the ideal instance, and the running minimum in closed form.

  At the ideal instance a float is an extended real.  Row `p` of the fill is `+∞`.  Row `p` of the loop's payload
  is the smaller of what the buffer held and the least, over the chunk's 1024 memory rows `l`, of
  `‖m_l‖² − Σ_c g(p,c)·m(l,c)` (the matrix product contracts the two operands' last axes; the chunk's squared norms
  are one row repeated down the block).  Row `p` of the last payload is `sqrt (max (‖f_p‖² + acc) 0)`.  Hence the
  buffer before trip `k` is the running minimum of the chunks' least values.
-/
import proofs.«117125_j764504179304_2_alg».proof.Proof.KernelBody
import proofs.«117125_j764504179304_2_alg».proof.Proof.LibMinChunks
import proofs.«117125_j764504179304_2_alg».proof.Proof.LibAxisFold
import proofs.«117125_j764504179304_2_alg».proof.Proof.LibMatmulRows
import proofs.«117125_j764504179304_2_alg».proof.Proof.LibFinite
import proofs.«117125_j764504179304_2_alg».proof.Proof.LibColumnCast
import Idealize.ShloMosaic.Lib.ValueIdx
import Idealize.ShloMosaic.Lib.ValueLayout
import Idealize.ShloMosaic.PureOps.Ideal.Laws

set_option maxRecDepth 16384

noncomputable section

namespace Cert.KernelIdeal.Point

open Cert.KernelIdeal Cert.KernelIdeal.Gen Cert.KernelIdeal.Body Idealize.ShloMosaic Idealize.ShloMosaic.ValueIdx Finset

/-! ## Where the matrix product's two operand indices sit -/

theorem lhs0 (i : S512x1024.Idx) (q : (dot_S512x128_S1024x128_S512x1024_1_1_0_0_n_n).contr.Idx) : ((dot_S512x128_S1024x128_S512x1024_1_1_0_0_n_n).lhsIdx i q (0 : Fin 2)).val = (i (0 : Fin 2)).val := by
  unfold DotDims.lhsIdx
  rw [dif_neg (show ¬(0 : Fin S512x128.rank) ∈ (dot_S512x128_S1024x128_S512x1024_1_1_0_0_n_n).lhsBatch by decide),
    dif_pos (show (0 : Fin S512x128.rank) ∈ (dot_S512x128_S1024x128_S512x1024_1_1_0_0_n_n).lhsNonContracting by decide)]
  rfl
theorem lhs1 (i : S512x1024.Idx) (q : (dot_S512x128_S1024x128_S512x1024_1_1_0_0_n_n).contr.Idx) : ((dot_S512x128_S1024x128_S512x1024_1_1_0_0_n_n).lhsIdx i q (1 : Fin 2)).val = (q ⟨0, by decide⟩).val :=
  (dot_S512x128_S1024x128_S512x1024_1_1_0_0_n_n).lhsIdx_val_of_single rfl i q
theorem rhs0 (i : S512x1024.Idx) (q : (dot_S512x128_S1024x128_S512x1024_1_1_0_0_n_n).contr.Idx) : ((dot_S512x128_S1024x128_S512x1024_1_1_0_0_n_n).rhsIdx i q (0 : Fin 2)).val = (i (1 : Fin 2)).val := by
  unfold DotDims.rhsIdx
  rw [dif_neg (show ¬(0 : Fin S1024x128.rank) ∈ (dot_S512x128_S1024x128_S512x1024_1_1_0_0_n_n).rhsBatch by decide),
    dif_pos (show (0 : Fin S1024x128.rank) ∈ (dot_S512x128_S1024x128_S512x1024_1_1_0_0_n_n).rhsNonContracting by decide)]
  rfl
theorem rhs1 (i : S512x1024.Idx) (q : (dot_S512x128_S1024x128_S512x1024_1_1_0_0_n_n).contr.Idx) : ((dot_S512x128_S1024x128_S512x1024_1_1_0_0_n_n).rhsIdx i q (1 : Fin 2)).val = (q ⟨0, by decide⟩).val :=
  (dot_S512x128_S1024x128_S512x1024_1_1_0_0_n_n).rhsIdx_val_of_single rfl i q

/-! ## The payloads at a row -/

/-- The fill is `+∞` everywhere. -/
theorem fill_at (y : S512x1.Idx) : (k0_pay1 (F := Ideal)) y = ⊤ := by
  unfold k0_pay1
  rw [shapeCast_self]
  exact Cert.Lib.Finite.ofBits_inf

/-- The loop's payload at row `p`: the smaller of the buffer's entry and the chunk's least value. -/
theorem chunk_at (v4 : Vec Ideal S512x128 .bf16) (v18 : Vec Ideal S1024x128 .bf16) (v21 : Vec Ideal S1x1024 .f32)
    (v28 : Vec Ideal S512x1 .f32) (p : Fin 512) (u : Fin 1) :
    k0_pay2 v4 v18 v21 v28 (ix2 p u)
      = min (v28 (ix2 p u)) ((univ : Finset (Fin 1024)).fold min ⊤
          fun l => v21 (ix2 (0 : Fin 1) l) - ∑ c : Fin 128, v4 (ix2 p c) * v18 (ix2 l c)) := by
  unfold k0_pay2
  simp only [shapeCast_self]
  refine congrArg (min (v28 (ix2 p u))) ?_
  refine (Cert.LibColumnCast.shapeCast_a_a1_apply _ _ p u).trans ?_
  refine (Cert.LibAxisFold.laneMin_row _ _ _ _ p).trans ?_
  rw [Cert.Lib.Finite.ofBits_inf]
  refine congrArg (fun f => Finset.fold min (⊤ : EReal) f (univ : Finset (Fin 1024))) (funext fun l => ?_)
  refine congrArg₂ (· - ·) (broadcastTo_1b_ab_apply v21 _ p l) ?_
  exact MatmulRows.matmul_zero_rows (dot_S512x128_S1024x128_S512x1024_1_1_0_0_n_n) rfl rfl lhs0 lhs1 rhs0 rhs1 none v4 v18 p l

/-- The last payload at row `p`. -/
theorem root_at (v7 v9 : Vec Ideal S512x1 .f32) (y : S512x1.Idx) :
    k0_pay3 v7 v9 y = Ideal.sqrt (max (v7 y + v9 y) 0) := by
  unfold k0_pay3
  simp only [shapeCast_self]
  show Ideal.sqrt (max (v7 y + v9 y) (Ideal.ofBits .f32 0x00000000#32)) = _
  rw [Ideal.ofBits_zero_f32]

end Cert.KernelIdeal.Point

end
-- ==== Proof.KernelBlock.lean ====
/-
  One grid point's output block at the ideal instance, in closed form.

  The loop's 16 trips sweep the 16384 resident memory rows in chunks of 1024: row `l` of chunk `k` is row
  `1024·k + l`.  The buffer before trip `k` is the running minimum of the earlier chunks' least values; after the
  last trip it is the least, over ALL memory rows `j`, of `‖m_j‖² − Σ_c g(p,c)·m(j,c)` (a minimum of chunk minima is
  the minimum).  Row `p` of the output block is the square root of that plus `‖f_p‖²`, clamped at zero.
-/
import proofs.«117125_j764504179304_2_alg».proof.Proof.KernelPoint

set_option maxRecDepth 16384

noncomputable section

namespace Cert.KernelIdeal.Block

open Cert.KernelIdeal Cert.KernelIdeal.Gen Cert.KernelIdeal.Body Cert.KernelIdeal.Point
open Idealize.ShloMosaic Idealize.ShloMosaic.ValueIdx Finset KnnMin

/-- The trips' chunks of 1024 rows make up the 16384 rows. -/
theorem trips_rows : k0_t1_loop.trips * 1024 = 16384 := by decide +kernel

/-- Row `l` of chunk `k` is row `1024·k + l` of the resident memory block. -/
theorem rows_at (x2 : Vec Ideal S16384x128 .bf16) (k : Fin k0_t1_loop.trips) (l : Fin 1024) (c : Fin 128) :
    rows x2 k (ix2 l c) = x2 (ix2 (pos trips_rows k l) c) := by
  unfold rows
  show x2 ((Rect.unit (s := S16384x128) (k0_off1 k) S1024x128.size (k0_off1_inb k)).idx (ix2 l c)) = _
  refine congrArg x2 (funext fun a => Fin.ext ?_)
  match a with
  | ⟨0, _⟩ =>
    show k0_off1 k 0 + 1 * l.val = k.val * 1024 + l.val
    rw [k0_off1_eq]
    show 1024 * k.val + 1 * l.val = k.val * 1024 + l.val
    omega
  | ⟨1, _⟩ =>
    show k0_off1 k 1 + 1 * c.val = c.val
    rw [k0_off1_eq]
    show 0 + 1 * c.val = c.val
    omega

/-- Entry `l` of chunk `k` of the squared norms is entry `1024·k + l` of the resident row. -/
theorem norms_at (x3 : Vec Ideal S1x16384 .f32) (k : Fin k0_t1_loop.trips) (l : Fin 1024) :
    norms x3 k (ix2 (0 : Fin 1) l) = x3 (ix2 (0 : Fin 1) (pos trips_rows k l)) := by
  unfold norms
  show x3 ((Rect.unit (s := S1x16384) (k0_off2 k) S1x1024.size (k0_off2_inb k)).idx (ix2 (0 : Fin 1) l)) = _
  refine congrArg x3 (funext fun a => Fin.ext ?_)
  match a with
  | ⟨0, _⟩ =>
    show k0_off2 k 0 + 1 * 0 = 0
    rw [k0_off2_eq]
    rfl
  | ⟨1, _⟩ =>
    show k0_off2 k 1 + 1 * l.val = k.val * 1024 + l.val
    rw [k0_off2_eq]
    show 1024 * k.val + 1 * l.val = k.val * 1024 + l.val
    omega

/-- What a memory row contributes to row `p`: its squared norm less the doubled row's product with it. -/
def term (x0 : Vec Ideal S512x128 .bf16) (x2 : Vec Ideal S16384x128 .bf16) (x3 : Vec Ideal S1x16384 .f32)
    (p : Fin 512) (j : Fin 16384) : EReal :=
  x3 (ix2 (0 : Fin 1) j) - ∑ c : Fin 128, x0 (ix2 p c) * x2 (ix2 j c)

/-- The buffer before trip `k`, at row `p`: the running minimum of the chunks' least values. -/
theorem acc_at (x0 : Vec Ideal S512x128 .bf16) (x2 : Vec Ideal S16384x128 .bf16) (x3 : Vec Ideal S1x16384 .f32)
    (p : Fin 512) (u : Fin 1) :
    ∀ k : ℕ, acc x0 x2 x3 k (ix2 p u)
      = runMin k0_t1_loop.trips (fun k' => (univ : Finset (Fin 1024)).fold min ⊤ fun l => term x0 x2 x3 p (pos trips_rows k' l)) k
  | 0 => fill_at _
  | k + 1 => by
    rw [acc, runMin]
    by_cases h : k < k0_t1_loop.trips
    · rw [dif_pos h, dif_pos h, chunk_at, acc_at x0 x2 x3 p u k]
      refine congrArg (min _) ?_
      refine congrArg (fun f => Finset.fold min (⊤ : EReal) f (univ : Finset (Fin 1024))) (funext fun l => ?_)
      unfold term
      rw [norms_at]
      refine congrArg (_ - ·) (Finset.sum_congr rfl fun c _ => ?_)
      rw [rows_at]
    · rw [dif_neg h, dif_neg h]
      exact acc_at x0 x2 x3 p u k

/-- ROW `p` OF THE OUTPUT BLOCK. -/
theorem block_at (c : Dev nD) (i : grid0.Coords) (arg1 : Memref sig .tc .vmem S512x128 .bf16) (harg1 : arg1.IsWhole) (arg2 : Memref sig .tc .vmem S512x1 .f32) (harg2 : arg2.IsWhole) (arg3 : Memref sig .tc .vmem S16384x128 .bf16) (harg3 : arg3.IsWhole) (arg4 : Memref sig .tc .vmem S1x16384 .f32) (harg4 : arg4.IsWhole) (arg5 : Memref sig .tc .vmem S512x1 .f32) (harg5 : arg5.IsWhole) (arg6 : Memref sig .tc .vmem S512x1 .f32) (harg6 : arg6.IsWhole)
    (x0 : Vec Ideal S512x128 .bf16) (x1 : Vec Ideal S512x1 .f32) (x2 : Vec Ideal S16384x128 .bf16) (x3 : Vec Ideal S1x16384 .f32)
    (p : Fin 512) (u : Fin 1) :
    out0_A_4 c i arg1 harg1 arg2 harg2 arg3 harg3 arg4 harg4 arg5 harg5 arg6 harg6 x0 x1 x2 x3 (ix2 p u)
      = Ideal.sqrt (max (x1 (ix2 p u) + (univ : Finset (Fin 16384)).fold min ⊤ fun j => term x0 x2 x3 p j) 0) := by
  rw [out_eq, root_at, acc_at, runMin_all, min_chunks trips_rows]

end Cert.KernelIdeal.Block

end
-- ==== Proof.KernelWhole.lean ====
/-
  The kernel's result array after the run, as one function of the four window arrays.

  Point `t` of the 16-point grid handles feature rows `512·t … 512·t + 511`: its blocks of the doubled features and
  of their squared norms are those rows, its blocks of the memory and of the memory's squared norms are the whole
  arrays (resident across the grid), and it writes back rows `512·t … 512·t + 511` of the result.  Row `r` of the
  result is therefore `sqrt (max (‖f_r‖² + min_j (‖m_j‖² − Σ_c g(r,c)·m(j,c))) 0)`, and the 16 blocks fill the
  array.
-/
import proofs.«117125_j764504179304_2_alg».proof.Proof.Gen.KernelIdeal.Value
import proofs.«117125_j764504179304_2_alg».proof.Proof.KernelBlock

set_option maxRecDepth 16384

noncomputable section

namespace Cert.KernelIdeal.Whole

open Cert.KernelIdeal Cert.KernelIdeal.Gen Cert.KernelIdeal.Block
open Idealize.ShloMosaic Idealize.ShloMosaic.TcCoe Idealize.SL.Sem Idealize.ShloMosaic.ValueIdx Finset
open Idealize.ShloMosaic.Pipeline (Dat)

variable (m : (ℓ : Loc nD τ sig) → Buf (Elt Ideal) ℓ) (ρ : Dev nD → PrngReg)

/-- The result as a function of the doubled features `A0`, the features' squared norms `A1` (a column), the memory
    `A2` and its squared norms `A3` (a row). -/
def nearest (A0 : S8192x128.Idx → EReal) (A1 : S8192x1.Idx → EReal) (A2 : S16384x128.Idx → EReal)
    (A3 : S1x16384.Idx → EReal) : S8192x1.Idx → EReal := fun i =>
  Ideal.sqrt (max (A1 i + (univ : Finset (Fin 16384)).fold min ⊤
    fun j => A3 (ix2 (0 : Fin 1) j) - ∑ k : Fin 128, A0 (ix2 (i 0) k) * A2 (ix2 j k)) 0)

/-- A block row whose four input blocks are the matching rows of the arrays is the matching row of `nearest`. -/
theorem nearest_of_blocks (A0 : S8192x128.Idx → EReal) (A1 : S8192x1.Idx → EReal) (A2 : S16384x128.Idx → EReal)
    (A3 : S1x16384.Idx → EReal) (x0 : Vec Ideal S512x128 .bf16) (x1 : Vec Ideal S512x1 .f32)
    (x2 : Vec Ideal S16384x128 .bf16) (x3 : Vec Ideal S1x16384 .f32) (p : Fin 512) (u : Fin 1) (i : S8192x1.Idx)
    (h1 : x1 (ix2 p u) = A1 i) (h0 : ∀ k : Fin 128, x0 (ix2 p k) = A0 (ix2 (i 0) k))
    (h2 : ∀ (j : Fin 16384) (k : Fin 128), x2 (ix2 j k) = A2 (ix2 j k))
    (h3 : ∀ j : Fin 16384, x3 (ix2 (0 : Fin 1) j) = A3 (ix2 (0 : Fin 1) j)) :
    Ideal.sqrt (max (x1 (ix2 p u) + (univ : Finset (Fin 16384)).fold min ⊤ fun j => term x0 x2 x3 p j) 0)
      = nearest A0 A1 A2 A3 i := by
  unfold nearest term
  simp only [h0, h1, h2, h3]

/-- The printed index maps, decided over the grid: windows 0, 1 and 4 move together down the rows, windows 2 and 3
    stay at the origin. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `nearest` of the window arrays as the region finds them. -/
theorem flushed_eq (c : Dev nD) (t : Fin cfg0.N) :
    (dats m 0 c).flushed 4 t = ((cfg0.win 4).blk t).view.read (Elt Ideal)
      (nearest (V m c main_v11) (V m c main_v9) (V m c main_v2) (V m c main_v6)) := by
  rw [Cert.KernelIdeal.Value.flushed4_A]
  funext y
  obtain ⟨p, u, rfl⟩ : ∃ (p : Fin 512) (u : Fin 1), y = ix2 p u := ⟨y 0, y 1, eq_ix2 y⟩
  refine (block_at c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t) p u).trans ?_
  obtain ⟨e0, e1, e2, e3, e4, e5, e6, e7, e8, e9⟩ := idx_facts t
  have h1 : ((cfg0.win 1).blk t).view.emb (ix2 p u) = ((cfg0.win 4).blk t).view.emb (ix2 p u) := by
    funext a; apply Fin.ext
    match a with
    | ⟨0, _⟩ => show win0_1.index t (0 : Fin 2) * 512 + 1 * p.val = win0_4.index t (0 : Fin 2) * 512 + 1 * p.val; omega
    | ⟨1, _⟩ => show win0_1.index t (1 : Fin 2) * 1 + 1 * u.val = win0_4.index t (1 : Fin 2) * 1 + 1 * u.val; omega
  have h0 : ∀ k : Fin 128, ((cfg0.win 0).blk t).view.emb (ix2 p k)
      = ix2 ((((cfg0.win 4).blk t).view.emb (ix2 p u)) 0) k := by
    intro k; funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 128 + 1 * k.val = k.val; omega
  have h2 : ∀ (j : Fin 16384) (k : Fin 128), ((cfg0.win 2).blk t).view.emb (ix2 j k) = ix2 j k := by
    intro j k; funext a; apply Fin.ext
    match a with
    | ⟨0, _⟩ => show win0_2.index t (0 : Fin 2) * 16384 + 1 * j.val = j.val; omega
    | ⟨1, _⟩ => show win0_2.index t (1 : Fin 2) * 128 + 1 * k.val = k.val; omega
  have h3 : ∀ j : Fin 16384, ((cfg0.win 3).blk t).view.emb (ix2 (0 : Fin 1) j) = ix2 (0 : Fin 1) j := by
    intro j; funext a; apply Fin.ext
    match a with
    | ⟨0, _⟩ => show win0_3.index t (0 : Fin 2) * 1 + 1 * 0 = 0; omega
    | ⟨1, _⟩ => show win0_3.index t (1 : Fin 2) * 16384 + 1 * j.val = j.val; omega
  exact nearest_of_blocks (V m c main_v11) (V m c main_v9) (V m c main_v2) (V m c main_v6)
    (iblk m c 0 t) (iblk m c 1 t) (iblk m c 2 t) (iblk m c 3 t) p u (((cfg0.win 4).blk t).view.emb (ix2 p u))
    (congrArg (V m c main_v9) h1) (fun k => congrArg (V m c main_v11) (h0 k))
    (fun j k => congrArg (V m c main_v2) (h2 j k)) (fun j => congrArg (V m c main_v6) (h3 j))

/-- An index of the result is in point `t`'s block iff each coordinate is in the block's range on its axis. -/
theorem mem_blk (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v12).slice (win0_4.rect t)).set ↔ _
  rw [View.set_slice_whole, Rect.mem_set_unit]
  exact Iff.rfl

/-- Row `r` of the result is in the block of point `r / 512`. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  let t : Fin cfg0.N := ⟨(i 0).val / 512, by show (i 0).val / 512 < grid0.N; rw [N_0]; omega⟩
  obtain ⟨-, -, -, -, -, -, -, -, e8, e9⟩ := idx_facts t
  have ht : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- THE RESULT ARRAY after the run. -/
theorem final (c : Dev nD) : (dats m 0 c).arrAt 4 cfg0.N
    = nearest (V m c main_v11) (V m c main_v9) (V m c main_v2) (V m c main_v6) :=
  (dats m 0 c).arrAt_eq_of_cover 4 _ (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v12) = nearest (V m c main_v11) (V m c main_v9) (V m c main_v2) (V m c main_v6)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.KernelHost.lean ====
/-
  The four arrays the kernel's windows stand on, as the region finds them: what the program's own operations
  before the call leave there.

  With `X` the features as an [8192, 128] matrix and `Y` the memory as a [16384, 128] matrix (the two reshaped
  arguments): window 0 is the doubled features `X + X` (narrowed, which is the identity on extended reals), window 2
  is `Y` (narrowed), window 1 is the features' squared norms stood up as a column, window 3 the memory's squared
  norms laid down as a row.  Each is read at an entry.
-/
import proofs.«117125_j764504179304_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The features as a matrix. -/
def feat (c : Dev nD) : FVec Ideal S8192x128 .f32 :=
  shapeCast _ (m ((c : Thread nD τ).loc main_arg0)) shapeCasts_S8192x1x1x128_S8192x128

/-- The memory as a matrix. -/
def memo (c : Dev nD) : FVec Ideal S16384x128 .f32 :=
  shapeCast _ (m ((c : Thread nD τ).loc main_arg1)) shapeCasts_S1x16384x1x128_S16384x128

/-- The features' squared norms. -/
def featSq (c : Dev nD) : FVec Ideal S8192 .f32 :=
  Host.reduceAdd (mulf (feat m c) (feat m c)) (constant (F := Ideal) S_ .f32 0x00000000#32) reducesTo_S8192x128_S8192_d1 h_S_

/-- The memory rows' squared norms. -/
def memoSq (c : Dev nD) : FVec Ideal S16384 .f32 :=
  Host.reduceAdd (mulf (memo m c) (memo m c)) (constant (F := Ideal) S_ .f32 0x00000000#32) reducesTo_S16384x128_S16384_d1 h_S_

theorem V_v11 (c : Dev nD) : (V m c main_v11 : S8192x128.Idx → EReal)
    = truncf .bf16 (addf (feat m c) (feat m c)) bitsLt_bf16_f32 := by
  dsimp only [Gen.V, Gen.hostOps0]; after_results; rfl

theorem V_v2 (c : Dev nD) : (V m c main_v2 : S16384x128.Idx → EReal) = truncf .bf16 (memo m c) bitsLt_bf16_f32 := by
  dsimp only [Gen.V, Gen.hostOps0]; after_results; rfl

theorem V_v9 (c : Dev nD) : (V m c main_v9 : S8192x1.Idx → EReal)
    = broadcastInDim S8192x1 ![0] bcast_S8192_S8192x1_0 (featSq m c) := by
  dsimp only [Gen.V, Gen.hostOps0]; after_results; rfl

theorem V_v6 (c : Dev nD) : (V m c main_v6 : S1x16384.Idx → EReal)
    = shapeCast _ (broadcastInDim S16384x1 ![0] bcast_S16384_S16384x1_0 (memoSq m c)) shapeCasts_S16384x1_S1x16384 := by
  dsimp only [Gen.V, Gen.hostOps0]; after_results; rfl

/-- Window 0 at `(r, k)`: the feature entry doubled. -/
theorem doubled_at (c : Dev nD) (r : Fin 8192) (k : Fin 128) :
    (V m c main_v11 : S8192x128.Idx → EReal) (ix2 r k) = feat m c (ix2 r k) + feat m c (ix2 r k) := by
  rw [V_v11]; rfl

/-- Window 2 at `(j, k)`: the memory entry. -/
theorem memo_at (c : Dev nD) (j : Fin 16384) (k : Fin 128) :
    (V m c main_v2 : S16384x128.Idx → EReal) (ix2 j k) = memo m c (ix2 j k) := by
  rw [V_v2]; rfl

/-- Window 1 at `(r, 0)`: the squared norm of feature row `r`. -/
theorem featSq_at (c : Dev nD) (i : S8192x1.Idx) :
    (V m c main_v9 : S8192x1.Idx → EReal) i = featSq m c (ix1 (i 0)) := by
  rw [V_v9]
  exact broadcastInDim_apply _ bcast_S8192_S8192x1_0 (featSq m c) i (ix1 (i 0)) (fun a => match a with
    | ⟨0, _⟩ => by show (i 0).val = if (8192 : Nat) = 1 then 0 else (i 0).val; rw [if_neg (by decide)])

/-- Window 3 at `(0, j)`: the squared norm of memory row `j`. -/
theorem memoSq_at (c : Dev nD) (j : Fin 16384) :
    (V m c main_v6 : S1x16384.Idx → EReal) (ix2 (0 : Fin 1) j) = memoSq m c (ix1 j) := by
  rw [V_v6]
  refine (shapeCast_apply _ shapeCasts_S16384x1_S1x16384 (ix2 (0 : Fin 1) j) (ix2 j (0 : Fin 1)) (by
    rw [Shape.rowMajor_val_two, Shape.rowMajor_val_two]
    show j.val * 1 + 0 = 0 * 16384 + j.val
    omega)).trans ?_
  exact broadcastInDim_apply _ bcast_S16384_S16384x1_0 (memoSq m c) (ix2 j (0 : Fin 1)) (ix1 j) (fun a => match a with
    | ⟨0, _⟩ => by show j.val = if (16384 : Nat) = 1 then 0 else j.val; rw [if_neg (by decide)])

end Cert.KernelIdeal.Host

end
-- ==== Proof.KnnLaw.lean ====
/-
  The law that joins the two programs, over the extended reals.

  For one feature row with real entries `a` and squared norm `f2`, and memory rows with real entries `b j` and
  squared norms `m2 j`:

      sqrt (max (f2 + min_j (m2 j − Σ_c (a_c + a_c)·b_jc)) 0)  =  min_j sqrt (max ((f2 + m2 j) − 2·Σ_c a_c·b_jc) 0).

  Three facts make it: `x ↦ sqrt (max (f2 + x) 0)` is monotone on the extended reals, so it commutes with the minimum
  of a nonempty family; addition of extended reals is associative, so `f2` moves inside the difference; and for REAL
  entries the doubled row's products sum to twice the row's (distributivity, which fails at the infinities — the one
  place finiteness of the inputs is used).  The squared norms may be any extended reals.
-/
import Idealize.ShloMosaic.PureOps.Ideal
import proofs.«117125_j764504179304_2_alg».proof.Proof.LibMinChunks

noncomputable section

namespace KnnLaw

open Idealize.ShloMosaic Finset

/-- The ideal square root is monotone: `⊥` below zero, the real root from zero on, `⊤` at `⊤`. -/
theorem sqrt_mono : Monotone Ideal.sqrt := by
  intro x y hxy
  induction x using EReal.rec with
  | bot => rw [Ideal.sqrt_bot]; exact bot_le
  | top =>
    have hy : y = ⊤ := top_le_iff.mp hxy
    rw [hy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · have hs : ¬ s < 0 := not_lt.mpr (le_trans (not_lt.mp hr) hrs)
        rw [if_neg hr, if_neg hs]
        exact EReal.coe_le_coe_iff.mpr (Real.sqrt_le_sqrt hrs)

/-- A finite sum of reals, read as an extended real, is the sum of the terms read so. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- For real entries, the doubled row against a memory row is twice the row against it. -/
theorem cross_double {d : ℕ} (a b : Fin d → ℝ) :
    ∑ c, ((a c : EReal) + (a c : EReal)) * (b c : EReal) = (2 : EReal) * ∑ c, (a c : EReal) * (b c : EReal) := by
  have h2 : (2 : EReal) = ((2 : ℝ) : EReal) := by norm_cast
  simp only [← EReal.coe_add, ← EReal.coe_mul]
  rw [← coe_sum, ← coe_sum, h2, ← EReal.coe_mul]
  refine congrArg _ ?_
  rw [Finset.mul_sum]
  exact Finset.sum_congr rfl fun c _ => by ring

/-- THE LAW. -/
theorem knn_law {n d : ℕ} [Nonempty (Fin n)] (f2 : EReal) (m2 : Fin n → EReal) (a : Fin d → ℝ) (b : Fin n → Fin d → ℝ) :
    Ideal.sqrt (max (f2 + (univ : Finset (Fin n)).fold min ⊤
        fun j => m2 j - ∑ c, ((a c : EReal) + (a c : EReal)) * (b j c : EReal)) 0)
      = (univ : Finset (Fin n)).fold min ⊤
        fun j => Ideal.sqrt (max ((f2 + m2 j) - (2 : EReal) * ∑ c, (a c : EReal) * (b j c : EReal)) 0) := by
  have hg : Monotone fun x : EReal => Ideal.sqrt (max (f2 + x) 0) :=
    fun x y h => sqrt_mono (max_le_max (add_le_add (le_refl f2) h) le_rfl)
  refine (KnnMin.map_minAll (fun x : EReal => Ideal.sqrt (max (f2 + x) 0)) hg _).trans ?_
  refine congrArg (fun f => Finset.fold min (⊤ : EReal) f (univ : Finset (Fin n))) (funext fun j => ?_)
  show Ideal.sqrt (max (f2 + (m2 j - ∑ c, ((a c : EReal) + (a c : EReal)) * (b j c : EReal))) 0) = _
  rw [cross_double, sub_eq_add_neg, ← add_assoc, ← sub_eq_add_neg]

end KnnLaw

end
-- ==== Proof.RefValue.lean ====
/-
  The reference's result at one row, and the bridge to the kernel's.

  The reference computes, for feature row `r`, the least over all memory rows `j` of
  `sqrt (max ((‖f_r‖² + ‖m_j‖²) − 2·Σ_c f(r,c)·m(j,c)) 0)`: its last reduction is a fold of `min` from `+∞` along the
  memory axis, and every operation before it reads one entry of each operand.  The kernel's result row is
  `sqrt (max (‖f_r‖² + min_j (‖m_j‖² − Σ_c (f(r,c) + f(r,c))·m(j,c))) 0)`.  For real entries the two are equal
  (`KnnLaw.knn_law`); the squared norms are the same two host sums on both sides and are never opened.
-/
import proofs.«117125_j764504179304_2_alg».proof.Proof.Gen.ReferenceIdeal.Read
import proofs.«117125_j764504179304_2_alg».proof.Pre_finite_inputs
import proofs.«117125_j764504179304_2_alg».proof.Proof.KnnLaw
import proofs.«117125_j764504179304_2_alg».proof.Proof.LibAxisFold
import proofs.«117125_j764504179304_2_alg».proof.Proof.LibFinite
import Idealize.ShloMosaic.PureOps.Ideal.Laws
import Idealize.ShloMosaic.Lib.ReduceAll

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Finset

/-- The word 0x40000000 denotes the real 2. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; norm_cast

variable (x0 : (⟨S8192x1x1x128, .f32⟩ : BufTy).Contents (Elt Ideal)) (x1 : (⟨S1x16384x1x128, .f32⟩ : BufTy).Contents (Elt Ideal))

/-- One entry of the distance matrix before the last reduction. -/
theorem dist_at (p : Fin 8192) (j : Fin 16384) :
    val_main_v17 (F := Ideal) x0 x1 (ix2 p j)
      = Ideal.sqrt (max ((val_main_v3 (F := Ideal) x0 (ix1 p) + val_main_v5 (F := Ideal) x1 (ix1 j))
          - (2 : EReal) * ∑ k : Fin 128, val_main_v0 (F := Ideal) x0 (ix2 p k) * val_main_v1 (F := Ideal) x1 (ix2 j k)) 0) := by
  have e9 : idx_main_v7 (idx_main_v9 (ix2 p j)) = ix1 p :=
    funext fun a => Fin.ext (by match a with | ⟨0, _⟩ => rfl)
  have e10 : idx_main_v8 (idx_main_v10 (ix2 p j)) = ix1 j :=
    funext fun a => Fin.ext (by match a with | ⟨0, _⟩ => rfl)
  have el : ∀ k : Fin 128, lidx_main_v6 (ix2 p j) k = ix2 p k :=
    fun k => funext fun a => Fin.ext (by match a with | ⟨0, _⟩ => rfl | ⟨1, _⟩ => rfl)
  have er : ∀ k : Fin 128, ridx_main_v6 (ix2 p j) k = ix2 j k :=
    fun k => funext fun a => Fin.ext (by match a with | ⟨0, _⟩ => rfl | ⟨1, _⟩ => rfl)
  rw [val_main_v17_apply, val_main_v16_apply, val_main_v14_apply, val_main_v11_apply, val_main_v13_apply,
    val_main_v9_apply, val_main_v7_apply, val_main_v10_apply, val_main_v8_apply, val_main_v12_apply,
    val_main_v15_apply, val_main_v6_apply, val_main_cst_1_apply, val_main_cst_2_apply]
  simp only [e9, e10, el, er, Ideal.hostUnary_sqrt_def, Ideal.maximumf_def, Ideal.subf_def, Ideal.addf_def,
    Ideal.mulf_def, Ideal.ofBits_def, ofBits_two, Ideal.ofBits_zero_f32]

/-- THE REFERENCE'S RESULT at row `i`: the least entry of row `i` of the distance matrix. -/
theorem ref_at (i : S8192x1.Idx) :
    val_main_v19 (F := Ideal) x0 x1 i
      = (univ : Finset (Fin 16384)).fold min ⊤ fun j =>
          Ideal.sqrt (max ((val_main_v3 (F := Ideal) x0 (ix1 (i 0)) + val_main_v5 (F := Ideal) x1 (ix1 j))
            - (2 : EReal) * ∑ k : Fin 128, val_main_v0 (F := Ideal) x0 (ix2 (i 0) k) * val_main_v1 (F := Ideal) x1 (ix2 j k)) 0) := by
  have hidx : idx_main_v19 i = ix1 (i 0) := funext fun a => Fin.ext (by match a with | ⟨0, _⟩ => rfl)
  rw [val_main_v19_apply, hidx]
  unfold val_main_v18
  have hR : S8192x16384.Reduces [1] S8192 := by decide
  refine (Host.reduce_eq_fold_single (FloatOps.minimumf (F := Ideal) (φ := .f32)) (val_main_v17 (F := Ideal) x0 x1)
    (val_main_cst_3 (F := Ideal)) reducesTo_S8192x16384_S8192_d1 hR h_S_ (ix1 (i 0))).trans ?_
  show (univ : Finset (Fin 16384)).fold min (Ideal.ofBits .f32 0x7F800000#32) _ = _
  rw [Cert.Lib.Finite.ofBits_inf]
  refine congrArg (fun f => Finset.fold min (⊤ : EReal) f (univ : Finset (Fin 16384))) (funext fun (j : Fin 16384) => ?_)
  exact (congrArg (val_main_v17 (F := Ideal) x0 x1) (Cert.LibAxisFold.lift_row hR (i 0) j)).trans (dist_at x0 x1 (i 0) j)

/-- THE BRIDGE: for real entries, the kernel's row formula is the reference's result. -/
theorem kernel_form_eq (h0 : ∀ i, ∃ r : ℝ, x0 i = (r : EReal)) (h1 : ∀ i, ∃ r : ℝ, x1 i = (r : EReal)) (i : S8192x1.Idx) :
    Ideal.sqrt (max (val_main_v3 (F := Ideal) x0 (ix1 (i 0)) + (univ : Finset (Fin 16384)).fold min ⊤ fun j =>
        val_main_v5 (F := Ideal) x1 (ix1 j)
          - ∑ k : Fin 128, (val_main_v0 (F := Ideal) x0 (ix2 (i 0) k) + val_main_v0 (F := Ideal) x0 (ix2 (i 0) k))
              * val_main_v1 (F := Ideal) x1 (ix2 j k)) 0)
      = val_main_v19 (F := Ideal) x0 x1 i := by
  rw [ref_at]
  have hX : ∀ q, ∃ r : ℝ, val_main_v0 (F := Ideal) x0 q = (r : EReal) := fun q => by
    rw [val_main_v0_apply]; exact h0 _
  have hY : ∀ q, ∃ r : ℝ, val_main_v1 (F := Ideal) x1 q = (r : EReal) := fun q => by
    rw [val_main_v1_apply]; exact h1 _
  choose a ha using fun k : Fin 128 => hX (ix2 (i 0) k)
  choose b hb using fun (j : Fin 16384) (k : Fin 128) => hY (ix2 j k)
  haveI : Nonempty (Fin 16384) := ⟨⟨0, by decide⟩⟩
  simp only [ha, hb]
  exact KnnLaw.knn_law _ (fun j => val_main_v5 (F := Ideal) x1 (ix1 j)) a b

/-- FINITENESS: the printed test "every input entry is below +∞ in absolute value" gives every entry a real. -/
theorem real_of_pre [Cert.Pre_finite_inputs.Facts]
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨ha, hb⟩ := IntOp.andi_eq_one.mp h'
  refine ⟨fun i => ?_, fun i => ?_⟩
  · exact Cert.Lib.Finite.real_of_cmp (x0 i) (Host.reduce_andi_all _ _ _ _ _ ha i)
  · exact Cert.Lib.Finite.real_of_cmp (x1 i) (Host.reduce_andi_all _ _ _ _ _ hb i)

end Cert.ReferenceIdeal.RefValue

end
-- ==== Proof.lean ====
/-
  Nearest-neighbour distances: for each of 8192 feature rows `f_r` (128 entries) the distance to the closest of
  16384 memory rows `m_j`,  `min_j ‖f_r − m_j‖`,  computed through  `‖f − m‖² = ‖f‖² + ‖m‖² − 2 f·m`.

  The reference forms the whole [8192, 16384] matrix `sqrt (max ((‖f_r‖² + ‖m_j‖²) − 2·f_r·m_j) 0)` and takes the
  least entry of each row.  The kernel never forms it: per block of 512 feature rows it sweeps the memory in 16 chunks
  of 1024 rows, keeps the running minimum of `‖m_j‖² − (f_r + f_r)·m_j` in a scratch column, and only after the sweep
  adds `‖f_r‖²`, clamps at zero and takes the one square root.  Over the extended reals the two agree whenever the
  inputs are real numbers:
    · a minimum of chunk minima, accumulated chunk by chunk from `+∞`, is the minimum over all rows (Proof/LibMinChunks.lean);
    · `x ↦ sqrt (max (‖f_r‖² + x) 0)` is monotone, so it commutes with the minimum over the (nonempty) memory;
    · addition is associative, so `‖f_r‖²` moves inside the difference;
    · for real entries `Σ_c (f + f)·m = 2·Σ_c f·m` — distributivity, the one step that needs the inputs finite
      (Proof/KnnLaw.lean).
  The squared norms are the same two host sums in both programs and are never opened.

  The kernel side: what one grid point leaves in its block as a pure function of its four input blocks, the loop's
  trips folded into a recursion (Proof/KernelBody.lean); that function at a row, at the ideal instance
  (Proof/KernelPoint.lean, Proof/KernelBlock.lean); the arrays the windows stand on (Proof/KernelHost.lean); the 16
  blocks put together (Proof/KernelWhole.lean).  The reference side and the bridge: Proof/RefValue.lean.  The three
  frames are the generated runs; the kernel's idealization rewrote nothing, so `preserves` has nothing to state.
-/
import proofs.«117125_j764504179304_2_alg».proof.Defs
import proofs.«117125_j764504179304_2_alg».proof.Proof.Gen.Kernel
import proofs.«117125_j764504179304_2_alg».proof.Proof.Gen.Kernel.Skeleton
import proofs.«117125_j764504179304_2_alg».proof.Proof.Gen.Kernel.Loops
import proofs.«117125_j764504179304_2_alg».proof.Proof.Gen.Kernel.Launch
import proofs.«117125_j764504179304_2_alg».proof.Proof.Gen.Kernel.Points
import proofs.«117125_j764504179304_2_alg».proof.Proof.Gen.Kernel.Frame
import proofs.«117125_j764504179304_2_alg».proof.Proof.Gen.KernelIdeal
import proofs.«117125_j764504179304_2_alg».proof.Proof.Gen.KernelIdeal.Skeleton
import proofs.«117125_j764504179304_2_alg».proof.Proof.Gen.KernelIdeal.Loops
import proofs.«117125_j764504179304_2_alg».proof.Proof.Gen.KernelIdeal.Launch
import proofs.«117125_j764504179304_2_alg».proof.Proof.Gen.KernelIdeal.Points
import proofs.«117125_j764504179304_2_alg».proof.Proof.Gen.KernelIdeal.Frame
import proofs.«117125_j764504179304_2_alg».proof.Proof.Gen.ReferenceIdeal
import proofs.«117125_j764504179304_2_alg».proof.Proof.Gen.Pre_finite_inputs
import proofs.«117125_j764504179304_2_alg».proof.Proof.Gen.KernelIdeal.Value
import proofs.«117125_j764504179304_2_alg».proof.Proof.Gen.ReferenceIdeal.Run
import proofs.«117125_j764504179304_2_alg».proof.Proof.Gen.ReferenceIdeal.Read
import proofs.«117125_j764504179304_2_alg».proof.Proof.KernelWhole
import proofs.«117125_j764504179304_2_alg».proof.Proof.KernelHost
import proofs.«117125_j764504179304_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The two results are one function -/

section
open Cert.KernelIdeal Cert.KernelIdeal.Gen

/-- `nearest` at a row depends on the four arrays only through that row's entries. -/
theorem nearest_congr (A0 : S8192x128.Idx → EReal) (A1 : S8192x1.Idx → EReal) (A2 : S16384x128.Idx → EReal)
    (A3 : S1x16384.Idx → EReal) (i : S8192x1.Idx) (f2 : EReal) (m2 : Fin 16384 → EReal) (X : Fin 128 → EReal)
    (Y : Fin 16384 → Fin 128 → EReal) (h1 : A1 i = f2) (h3 : ∀ j : Fin 16384, A3 (ValueIdx.ix2 (0 : Fin 1) j) = m2 j)
    (h0 : ∀ k : Fin 128, A0 (ValueIdx.ix2 (i 0) k) = X k + X k)
    (h2 : ∀ (j : Fin 16384) (k : Fin 128), A2 (ValueIdx.ix2 j k) = Y j k) :
    Cert.KernelIdeal.Whole.nearest A0 A1 A2 A3 i
      = Ideal.sqrt (max (f2 + (Finset.univ : Finset (Fin 16384)).fold min ⊤
          fun j => m2 j - ∑ k : Fin 128, (X k + X k) * Y j k) 0) := by
  unfold Cert.KernelIdeal.Whole.nearest
  simp only [h0, h1, h2, h3]

/-- Under the precondition the kernel's result array — `nearest` of the four window arrays — is the reference's
    result of the same two arguments: row by row, the window arrays read back to the features, the memory and their
    squared norms, then the bridge. -/
theorem nearest_eq (m : (ℓ : Loc nD τ sig) → Buf (Elt Ideal) ℓ) (hpre : Cert.Pre_KernelIdeal m) (c : Dev nD) :
    Cert.KernelIdeal.Whole.nearest (V m c main_v11) (V m c main_v9) (V m c main_v2) (V m c main_v6)
      = Cert.ReferenceIdeal.Read.val_main_v19 (F := Ideal) (m ((c : Thread nD τ).loc main_arg0)) (m ((c : Thread nD τ).loc main_arg1)) := by
  obtain ⟨h0, h1⟩ := Cert.ReferenceIdeal.RefValue.real_of_pre _ _ (hpre c)
  funext i
  refine (nearest_congr _ _ _ _ i _ _ _ _ (Cert.KernelIdeal.Host.featSq_at m c i)
    (fun j => Cert.KernelIdeal.Host.memoSq_at m c j) (fun k => Cert.KernelIdeal.Host.doubled_at m c (i 0) k)
    (fun j k => Cert.KernelIdeal.Host.memo_at m c j k)).trans ?_
  exact Cert.ReferenceIdeal.RefValue.kernel_form_eq _ _ h0 h1 i

end

/-! ## The claims -/

/-- From memories agreeing on the two arguments both programs run, and the kernel's result array is the
    reference's. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (nearest_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
